-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x40000x64 : Shape := ⟨3, ![8, 40000, 64]⟩
abbrev S320000 : Shape := ⟨1, ![320000]⟩
abbrev S384x64 : Shape := ⟨2, ![384, 64]⟩
abbrev S_ : Shape := ⟨0, ![]⟩

class Facts : Prop where
  bcast_S_S8x40000x64 : S_.BroadcastsInDim S8x40000x64 (![] : Fin 0 → Fin S8x40000x64.rank)
  reducesTo_S8x40000x64_S_d0_1_2 : S8x40000x64.ReducesTo [0, 1, 2] S_
  h_S_ : 0 < S_.numel
  bcast_S_S320000 : S_.BroadcastsInDim S320000 (![] : Fin 0 → Fin S320000.rank)
  reducesTo_S320000_S_d0 : S320000.ReducesTo [0] S_
  bcast_S_S384x64 : S_.BroadcastsInDim S384x64 (![] : Fin 0 → Fin S384x64.rank)
  reducesTo_S384x64_S_d0_1 : S384x64.ReducesTo [0, 1] S_

variable [Facts]

def fn {F : FTy → Type} [FloatOps F] (main_arg0 : FVec F S8x40000x64 .f32) (main_arg1 : FVec F S320000 .f32) (main_arg2 : FVec F S384x64 .f32) (main_arg3 : IVec S320000 32) (main_arg4 : IVec S320000 32) : IVec S_ 1 :=
  let main_v0 : FVec F S8x40000x64 .f32 := Host.absf main_arg0
  let main_cst : FVec F S_ .f32 := constant S_ .f32 0x7F800000#32
  let main_v1 : FVec F S8x40000x64 .f32 := broadcastInDim S8x40000x64 ![] bcast_S_S8x40000x64 main_cst
  let main_v2 : IVec S8x40000x64 1 := cmpf .olt main_v0 main_v1
  let main_c : IVec S_ 1 := constantI S_ 1 1#1
  let main_v3 : IVec S_ 1 := (fun x v => Host.reduce IntOp.andi x v reducesTo_S8x40000x64_S_d0_1_2 h_S_) main_v2 main_c
  let main_v4 : FVec F S320000 .f32 := Host.absf main_arg1
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S384x64 .f32 := Host.absf main_arg2
  let main_cst_2 : FVec F S_ .f32 := constant S_ .f32 0x7F800000#32
  let main_v10 : FVec F S384x64 .f32 := broadcastInDim S384x64 ![] bcast_S_S384x64 main_cst_2
  let main_v11 : IVec S384x64 1 := cmpf .olt main_v9 main_v10
  let main_c_3 : IVec S_ 1 := constantI S_ 1 1#1
  let main_v12 : IVec S_ 1 := (fun x v => Host.reduce IntOp.andi x v reducesTo_S384x64_S_d0_1 h_S_) main_v11 main_c_3
  let main_v13 : IVec S_ 1 := andi main_v8 main_v12
  main_v13
-- ==== Kernel.lean ====
abbrev S8x40000x64 : Shape := ⟨3, ![8, 40000, 64]⟩
abbrev S320000 : Shape := ⟨1, ![320000]⟩
abbrev S384x64 : Shape := ⟨2, ![384, 64]⟩
abbrev S40000x64x8 : Shape := ⟨3, ![40000, 64, 8]⟩
abbrev S40000x512 : Shape := ⟨2, ![40000, 512]⟩
abbrev S320000x1 : Shape := ⟨2, ![320000, 1]⟩
abbrev S_ : Shape := ⟨0, ![]⟩
abbrev S320000x512 : Shape := ⟨2, ![320000, 512]⟩
abbrev S1x40000x512 : Shape := ⟨3, ![1, 40000, 512]⟩
abbrev S6x40000x512 : Shape := ⟨3, ![6, 40000, 512]⟩
abbrev S6x40000x64x8 : Shape := ⟨4, ![6, 40000, 64, 8]⟩
abbrev S8x40000x64x6 : Shape := ⟨4, ![8, 40000, 64, 6]⟩
abbrev S320000x384 : Shape := ⟨2, ![320000, 384]⟩
abbrev S320000x64 : Shape := ⟨2, ![320000, 64]⟩
abbrev S6400x384 : Shape := ⟨2, ![6400, 384]⟩
abbrev S6400x64 : Shape := ⟨2, ![6400, 64]⟩

abbrev nBuf : Space → Nat
  | .hbm => 120
  | .vmem => 5
  | .smem => 0
  | _ => 0

abbrev bufTy : (tb : Table) → Fin (tcTables nBuf tb) → BufTy
  | .hbm, ⟨0, _⟩ => ⟨S8x40000x64, .f32⟩
  | .hbm, ⟨1, _⟩ => ⟨S320000, .f32⟩
  | .hbm, ⟨2, _⟩ => ⟨S384x64, .f32⟩
  | .hbm, ⟨3, _⟩ => ⟨S320000, .i32⟩
  | .hbm, ⟨4, _⟩ => ⟨S320000, .i32⟩
  | .hbm, ⟨5, _⟩ => ⟨S40000x64x8, .f32⟩
  | .hbm, ⟨6, _⟩ => ⟨S40000x512, .f32⟩
  | .hbm, ⟨7, _⟩ => ⟨S320000x1, .f32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x512, .f32⟩
  | .hbm, ⟨17, _⟩ => ⟨S320000x512, .f32⟩
  | .hbm, ⟨18, _⟩ => ⟨S320000x512, .f32⟩
  | .hbm, ⟨19, _⟩ => ⟨S_, .f32⟩
  | .hbm, ⟨20, _⟩ => ⟨S40000x512, .f32⟩
  | .hbm, ⟨21, _⟩ => ⟨S320000x1, .i32⟩
  | .hbm, ⟨22, _⟩ => ⟨S40000x512, .f32⟩
  | .hbm, ⟨23, _⟩ => ⟨S40000x512, .f32⟩
  | .hbm, ⟨24, _⟩ => ⟨S320000x1, .f32⟩
  | .hbm, ⟨25, _⟩ => ⟨S_, .i32⟩
  | .hbm, ⟨26, _⟩ => ⟨S320000, .i32⟩
  | .hbm, ⟨27, _⟩ => ⟨S320000, .i1⟩
  | .hbm, ⟨28, _⟩ => ⟨S_, .i32⟩
  | .hbm, ⟨29, _⟩ => ⟨S320000, .i32⟩
  | .hbm, ⟨30, _⟩ => ⟨S320000, .i32⟩
  | .hbm, ⟨31, _⟩ => ⟨S320000, .i32⟩
  | .hbm, ⟨32, _⟩ => ⟨S320000x1, .i32⟩
  | .hbm, ⟨33, _⟩ => ⟨S320000x512, .f32⟩
  | .hbm, ⟨34, _⟩ => ⟨S320000x512, .f32⟩
  | .hbm, ⟨35, _⟩ => ⟨S320000x512, .f32⟩
  | .hbm, ⟨36, _⟩ => ⟨S_, .f32⟩
  | .hbm, ⟨37, _⟩ => ⟨S40000x512, .f32⟩
  | .hbm, ⟨38, _⟩ => ⟨S320000x1, .i32⟩
  | .hbm, ⟨39, _⟩ => ⟨S40000x512, .f32⟩
  | .hbm, ⟨40, _⟩ => ⟨S40000x512, .f32⟩
  | .hbm, ⟨41, _⟩ => ⟨S_, .f32⟩
  | .hbm, ⟨42, _⟩ => ⟨S40000x512, .f32⟩
  | .hbm, ⟨43, _⟩ => ⟨S40000x512, .f32⟩
  | .hbm, ⟨44, _⟩ => ⟨S40000x512, .f32⟩
  | .hbm, ⟨45, _⟩ => ⟨S320000x1, .f32⟩
  | .hbm, ⟨46, _⟩ => ⟨S_, .i32⟩
  | .hbm, ⟨47, _⟩ => ⟨S320000, .i32⟩
  | .hbm, ⟨48, _⟩ => ⟨S320000, .i1⟩
  | .hbm, ⟨49, _⟩ => ⟨S_, .i32⟩
  | .hbm, ⟨50, _⟩ => ⟨S320000, .i32⟩
  | .hbm, ⟨51, _⟩ => ⟨S320000, .i32⟩
  | .hbm, ⟨52, _⟩ => ⟨S320000, .i32⟩
  | .hbm, ⟨53, _⟩ => ⟨S320000x1, .i32⟩
  | .hbm, ⟨54, _⟩ => ⟨S320000x512, .f32⟩
  | .hbm, ⟨55, _⟩ => ⟨S320000x512, .f32⟩
  | .hbm, ⟨56, _⟩ => ⟨S320000x512, .f32⟩
  | .hbm, ⟨57, _⟩ => ⟨S_, .f32⟩
  | .hbm, ⟨58, _⟩ => ⟨S40000x512, .f32⟩
  | .hbm, ⟨59, _⟩ => ⟨S320000x1, .i32⟩
  | .hbm, ⟨60, _⟩ => ⟨S40000x512, .f32⟩
  | .hbm, ⟨61, _⟩ => ⟨S40000x512, .f32⟩
  | .hbm, ⟨62, _⟩ => ⟨S_, .f32⟩
  | .hbm, ⟨63, _⟩ => ⟨S40000x512, .f32⟩
  | .hbm, ⟨64, _⟩ => ⟨S40000x512, .f32⟩
  | .hbm, ⟨65, _⟩ => ⟨S40000x512, .f32⟩
  | .hbm, ⟨66, _⟩ => ⟨S320000x1, .f32⟩
  | .hbm, ⟨67, _⟩ => ⟨S_, .i32⟩
  | .hbm, ⟨68, _⟩ => ⟨S320000, .i32⟩
  | .hbm, ⟨69, _⟩ => ⟨S320000, .i1⟩
  | .hbm, ⟨70, _⟩ => ⟨S_, .i32⟩
  | .hbm, ⟨71, _⟩ => ⟨S320000, .i32⟩
  | .hbm, ⟨72, _⟩ => ⟨S320000, .i32⟩
  | .hbm, ⟨73, _⟩ => ⟨S320000, .i32⟩
  | .hbm, ⟨74, _⟩ => ⟨S320000x1, .i32⟩
  | .hbm, ⟨75, _⟩ => ⟨S320000x512, .f32⟩
  | .hbm, ⟨76, _⟩ => ⟨S320000x512, .f32⟩
  | .hbm, ⟨77, _⟩ => ⟨S320000x512, .f32⟩
  | .hbm, ⟨78, _⟩ => ⟨S_, .f32⟩
  | .hbm, ⟨79, _⟩ => ⟨S40000x512, .f32⟩
  | .hbm, ⟨80, _⟩ => ⟨S320000x1, .i32⟩
  | .hbm, ⟨81, _⟩ => ⟨S40000x512, .f32⟩
  | .hbm, ⟨82, _⟩ => ⟨S40000x512, .f32⟩
  | .hbm, ⟨83, _⟩ => ⟨S_, .f32⟩
  | .hbm, ⟨84, _⟩ => ⟨S40000x512, .f32⟩
  | .hbm, ⟨85, _⟩ => ⟨S40000x512, .f32⟩
  | .hbm, ⟨86, _⟩ => ⟨S40000x512, .f32⟩
  | .hbm, ⟨87, _⟩ => ⟨S320000x1, .f32⟩
  | .hbm, ⟨88, _⟩ => ⟨S_, .i32⟩
  | .hbm, ⟨89, _⟩ => ⟨S320000, .i32⟩
  | .hbm, ⟨90, _⟩ => ⟨S320000, .i1⟩
  | .hbm, ⟨91, _⟩ => ⟨S_, .i32⟩
  | .hbm, ⟨92, _⟩ => ⟨S320000, .i32⟩
  | .hbm, ⟨93, _⟩ => ⟨S320000, .i32⟩
  | .hbm, ⟨94, _⟩ => ⟨S320000, .i32⟩
  | .hbm, ⟨95, _⟩ => ⟨S320000x1, .i32⟩
  | .hbm, ⟨96, _⟩ => ⟨S320000x512, .f32⟩
  | .hbm, ⟨97, _⟩ => ⟨S320000x512, .f32⟩
  | .hbm, ⟨98, _⟩ => ⟨S320000x512, .f32⟩
  | .hbm, ⟨99, _⟩ => ⟨S_, .f32⟩
  | .hbm, ⟨100, _⟩ => ⟨S40000x512, .f32⟩
  | .hbm, ⟨101, _⟩ => ⟨S320000x1, .i32⟩
  | .hbm, ⟨102, _⟩ => ⟨S40000x512, .f32⟩
  | .hbm, ⟨103, _⟩ => ⟨S40000x512, .f32⟩
  | .hbm, ⟨104, _⟩ => ⟨S_, .f32⟩
  | .hbm, ⟨105, _⟩ => ⟨S40000x512, .f32⟩
  | .hbm, ⟨106, _⟩ => ⟨S40000x512, .f32⟩
  | .hbm, ⟨107, _⟩ => ⟨S40000x512, .f32⟩
  | .hbm, ⟨108, _⟩ => ⟨S1x40000x512, .f32⟩
  | .hbm, ⟨109, _⟩ => ⟨S1x40000x512, .f32⟩
  | .hbm, ⟨110, _⟩ => ⟨S1x40000x512, .f32⟩
  | .hbm, ⟨111, _⟩ => ⟨S1x40000x512, .f32⟩
  | .hbm, ⟨112, _⟩ => ⟨S1x40000x512, .f32⟩
  | .hbm, ⟨113, _⟩ => ⟨S1x40000x512, .f32⟩
  | .hbm, ⟨114, _⟩ => ⟨S6x40000x512, .f32⟩
  | .hbm, ⟨115, _⟩ => ⟨S6x40000x64x8, .f32⟩
  | .hbm, ⟨116, _⟩ => ⟨S8x40000x64x6, .f32⟩
  | .hbm, ⟨117, _⟩ => ⟨S320000x384, .f32⟩
  | .hbm, ⟨118, _⟩ => ⟨S320000x64, .f32⟩
  | .hbm, ⟨119, _⟩ => ⟨S8x40000x64, .f32⟩
  | .local _ .vmem, ⟨0, _⟩ => ⟨S6400x384, .f32⟩
  | .local _ .vmem, ⟨1, _⟩ => ⟨S6400x384, .f32⟩
  | .local _ .vmem, ⟨2, _⟩ => ⟨S384x64, .f32⟩
  | .local _ .vmem, ⟨3, _⟩ => ⟨S6400x64, .f32⟩
  | .local _ .vmem, ⟨4, _⟩ => ⟨S6400x64, .f32⟩
  | _, _ => ⟨S8x40000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_9 : Ref sig .tc := ⟨.hbm, 67, rfl⟩
abbrev main_v51 : Ref sig .tc := ⟨.hbm, 68, rfl⟩
abbrev main_v52 : Ref sig .tc := ⟨.hbm, 69, rfl⟩
abbrev main_c_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_13 : Ref sig .tc := ⟨.hbm, 88, rfl⟩
abbrev main_v68 : Ref sig .tc := ⟨.hbm, 89, rfl⟩
abbrev main_v69 : Ref sig .tc := ⟨.hbm, 90, rfl⟩
abbrev main_c_14 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_16 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S8x40000x64_S40000x64x8_1_2_0 : S8x40000x64.Transposes [1, 2, 0] S40000x64x8
  shapeCasts_S40000x64x8_S40000x512 : S40000x64x8.ShapeCasts S40000x512
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x512_0_1 : S320000x1.BroadcastsInDim S320000x512 (![0, 1] : Fin 2 → Fin S320000x512.rank)
  bcast_S_S40000x512 : S_.BroadcastsInDim S40000x512 (![] : Fin 0 → Fin S40000x512.rank)
  bcast_S40000x512_S1x40000x512_1_2 : S40000x512.BroadcastsInDim S1x40000x512 (![1, 2] : Fin 2 → Fin S1x40000x512.rank)
  concatenates_S1x40000x512_S1x40000x512_S1x40000x512_S1x40000x512_S1x40000x512_S1x40000x512_S6x40000x512_d0 : Shape.Concatenates [S1x40000x512, S1x40000x512, S1x40000x512, S1x40000x512, S1x40000x512, S1x40000x512] S6x40000x512 0
  shapeCasts_S6x40000x512_S6x40000x64x8 : S6x40000x512.ShapeCasts S6x40000x64x8
  transposes_S6x40000x64x8_S8x40000x64x6_3_1_2_0 : S6x40000x64x8.Transposes [3, 1, 2, 0] S8x40000x64x6
  shapeCasts_S8x40000x64x6_S320000x384 : S8x40000x64x6.ShapeCasts S320000x384
  inb_S6400x384_S6400x384_0_0 : ∀ a, (![0, 0] : Fin 2 → Nat) a + S6400x384.size a ≤ S6400x384.size a
  h_S6400x384 : 0 < S6400x384.numel
  shapeCasts_S6400x384_S6400x384 : S6400x384.ShapeCasts S6400x384
  bitsLt_bf16_f32 : FTy.bits .bf16 < FTy.bits .f32
  inb_S384x64_S384x64_0_0 : ∀ a, (![0, 0] : Fin 2 → Nat) a + S384x64.size a ≤ S384x64.size a
  h_S384x64 : 0 < S384x64.numel
  inb_S6400x64_S6400x64_0_0 : ∀ a, (![0, 0] : Fin 2 → Nat) a + S6400x64.size a ≤ S6400x64.size a
  h_S6400x64 : 0 < S6400x64.numel
  shapeCasts_S320000x64_S8x40000x64 : S320000x64.ShapeCasts S8x40000x64
  gather_S40000x512_S320000x1_S320000x512_1_0_n_n_0_1_1512_wf : GatherDims.WF S40000x512 S320000x1 S320000x512 [1] [0] [] [0] [] 1 ![1, 512]
  scatter_S40000x512_S320000x1_S320000x512_1_0_0_1_wf : ScatterDims.WF S40000x512 S320000x1 S320000x512 [1] [0] [0] 1
  dot_S6400x384_S384x64_S6400x64_1_0_0_1_n_n_wf : DotDims.WF S6400x384 S384x64 S6400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x384.size a ≤ S320000x384.size a
  hwx0_0 : ∀ i : grid0.Coords, EltTy.bits .f32 = 32 ∨ (Rect.block (s := S320000x384) S6400x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x64.size a ≤ S384x64.size a
  hwx0_1 : ∀ i : grid0.Coords, EltTy.bits .f32 = 32 ∨ (Rect.block (s := S384x64) S384x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x64.size a ≤ S320000x64.size a
  hwx0_2 : ∀ i : grid0.Coords, EltTy.bits .f32 = 32 ∨ (Rect.block (s := S320000x64) S6400x64.size (cc0_transform_2 i) (hinb0_2 i)).WholeWords (EltTy.packing .f32)

variable [Facts₀]

def gather_S40000x512_S320000x1_S320000x512_1_0_n_n_0_1_1512 : GatherDims S40000x512 S320000x1 S320000x512 where
  offsetDims := [1]
  collapsedSliceDims := [0]
  operandBatchingDims := []
  startIndicesBatchingDims := []
  startIndexMap := [0]
  indexVectorDim := 1
  sliceSizes := ![1, 512]
  wf := gather_S40000x512_S320000x1_S320000x512_1_0_n_n_0_1_1512_wf
def scatter_S40000x512_S320000x1_S320000x512_1_0_0_1 : ScatterDims S40000x512 S320000x1 S320000x512 where
  updateWindowDims := [1]
  insertedWindowDims := [0]
  scatterDimsToOperandDims := [0]
  indexVectorDim := 1
  wf := scatter_S40000x512_S320000x1_S320000x512_1_0_0_1_wf
def dot_S6400x384_S384x64_S6400x64_1_0_0_1_n_n : DotDims S6400x384 S384x64 S6400x64 where
  lhsContracting := [1]
  rhsContracting := [0]
  lhsNonContracting := [0]
  rhsNonContracting := [1]
  lhsBatch := []
  rhsBatch := []
  wf := dot_S6400x384_S384x64_S6400x64_1_0_0_1_n_n_wf

abbrev win0_0 : Pipeline.Window sig grid0 :=
  Pipeline.Window.ofSpec (Memref.whole main_v93) S6400x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v94) S6400x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x40000x64 : Shape := ⟨3, ![8, 40000, 64]⟩
abbrev S320000 : Shape := ⟨1, ![320000]⟩
abbrev S384x64 : Shape := ⟨2, ![384, 64]⟩
abbrev S40000x64x8 : Shape := ⟨3, ![40000, 64, 8]⟩
abbrev S40000x512 : Shape := ⟨2, ![40000, 512]⟩
abbrev S320000x1 : Shape := ⟨2, ![320000, 1]⟩
abbrev S_ : Shape := ⟨0, ![]⟩
abbrev S320000x512 : Shape := ⟨2, ![320000, 512]⟩
abbrev S1x40000x512 : Shape := ⟨3, ![1, 40000, 512]⟩
abbrev S6x40000x512 : Shape := ⟨3, ![6, 40000, 512]⟩
abbrev S6x40000x64x8 : Shape := ⟨4, ![6, 40000, 64, 8]⟩
abbrev S8x40000x64x6 : Shape := ⟨4, ![8, 40000, 64, 6]⟩
abbrev S320000x384 : Shape := ⟨2, ![320000, 384]⟩
abbrev S320000x64 : Shape := ⟨2, ![320000, 64]⟩

abbrev nBuf : Space → Nat
  | .hbm => 120
  | .vmem => 0
  | .smem => 0
  | _ => 0

abbrev bufTy : (tb : Table) → Fin (tcTables nBuf tb) → BufTy
  | .hbm, ⟨0, _⟩ => ⟨S8x40000x64, .f32⟩
  | .hbm, ⟨1, _⟩ => ⟨S320000, .f32⟩
  | .hbm, ⟨2, _⟩ => ⟨S384x64, .f32⟩
  | .hbm, ⟨3, _⟩ => ⟨S320000, .i32⟩
  | .hbm, ⟨4, _⟩ => ⟨S320000, .i32⟩
  | .hbm, ⟨5, _⟩ => ⟨S40000x64x8, .f32⟩
  | .hbm, ⟨6, _⟩ => ⟨S40000x512, .f32⟩
  | .hbm, ⟨7, _⟩ => ⟨S320000x1, .f32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x512, .f32⟩
  | .hbm, ⟨17, _⟩ => ⟨S320000x512, .f32⟩
  | .hbm, ⟨18, _⟩ => ⟨S320000x512, .f32⟩
  | .hbm, ⟨19, _⟩ => ⟨S_, .f32⟩
  | .hbm, ⟨20, _⟩ => ⟨S40000x512, .f32⟩
  | .hbm, ⟨21, _⟩ => ⟨S320000x1, .i32⟩
  | .hbm, ⟨22, _⟩ => ⟨S40000x512, .f32⟩
  | .hbm, ⟨23, _⟩ => ⟨S40000x512, .f32⟩
  | .hbm, ⟨24, _⟩ => ⟨S320000x1, .f32⟩
  | .hbm, ⟨25, _⟩ => ⟨S_, .i32⟩
  | .hbm, ⟨26, _⟩ => ⟨S320000, .i32⟩
  | .hbm, ⟨27, _⟩ => ⟨S320000, .i1⟩
  | .hbm, ⟨28, _⟩ => ⟨S_, .i32⟩
  | .hbm, ⟨29, _⟩ => ⟨S320000, .i32⟩
  | .hbm, ⟨30, _⟩ => ⟨S320000, .i32⟩
  | .hbm, ⟨31, _⟩ => ⟨S320000, .i32⟩
  | .hbm, ⟨32, _⟩ => ⟨S320000x1, .i32⟩
  | .hbm, ⟨33, _⟩ => ⟨S320000x512, .f32⟩
  | .hbm, ⟨34, _⟩ => ⟨S320000x512, .f32⟩
  | .hbm, ⟨35, _⟩ => ⟨S320000x512, .f32⟩
  | .hbm, ⟨36, _⟩ => ⟨S_, .f32⟩
  | .hbm, ⟨37, _⟩ => ⟨S40000x512, .f32⟩
  | .hbm, ⟨38, _⟩ => ⟨S320000x1, .i32⟩
  | .hbm, ⟨39, _⟩ => ⟨S40000x512, .f32⟩
  | .hbm, ⟨40, _⟩ => ⟨S40000x512, .f32⟩
  | .hbm, ⟨41, _⟩ => ⟨S_, .f32⟩
  | .hbm, ⟨42, _⟩ => ⟨S40000x512, .f32⟩
  | .hbm, ⟨43, _⟩ => ⟨S40000x512, .f32⟩
  | .hbm, ⟨44, _⟩ => ⟨S40000x512, .f32⟩
  | .hbm, ⟨45, _⟩ => ⟨S320000x1, .f32⟩
  | .hbm, ⟨46, _⟩ => ⟨S_, .i32⟩
  | .hbm, ⟨47, _⟩ => ⟨S320000, .i32⟩
  | .hbm, ⟨48, _⟩ => ⟨S320000, .i1⟩
  | .hbm, ⟨49, _⟩ => ⟨S_, .i32⟩
  | .hbm, ⟨50, _⟩ => ⟨S320000, .i32⟩
  | .hbm, ⟨51, _⟩ => ⟨S320000, .i32⟩
  | .hbm, ⟨52, _⟩ => ⟨S320000, .i32⟩
  | .hbm, ⟨53, _⟩ => ⟨S320000x1, .i32⟩
  | .hbm, ⟨54, _⟩ => ⟨S320000x512, .f32⟩
  | .hbm, ⟨55, _⟩ => ⟨S320000x512, .f32⟩
  | .hbm, ⟨56, _⟩ => ⟨S320000x512, .f32⟩
  | .hbm, ⟨57, _⟩ => ⟨S_, .f32⟩
  | .hbm, ⟨58, _⟩ => ⟨S40000x512, .f32⟩
  | .hbm, ⟨59, _⟩ => ⟨S320000x1, .i32⟩
  | .hbm, ⟨60, _⟩ => ⟨S40000x512, .f32⟩
  | .hbm, ⟨61, _⟩ => ⟨S40000x512, .f32⟩
  | .hbm, ⟨62, _⟩ => ⟨S_, .f32⟩
  | .hbm, ⟨63, _⟩ => ⟨S40000x512, .f32⟩
  | .hbm, ⟨64, _⟩ => ⟨S40000x512, .f32⟩
  | .hbm, ⟨65, _⟩ => ⟨S40000x512, .f32⟩
  | .hbm, ⟨66, _⟩ => ⟨S320000x1, .f32⟩
  | .hbm, ⟨67, _⟩ => ⟨S_, .i32⟩
  | .hbm, ⟨68, _⟩ => ⟨S320000, .i32⟩
  | .hbm, ⟨69, _⟩ => ⟨S320000, .i1⟩
  | .hbm, ⟨70, _⟩ => ⟨S_, .i32⟩
  | .hbm, ⟨71, _⟩ => ⟨S320000, .i32⟩
  | .hbm, ⟨72, _⟩ => ⟨S320000, .i32⟩
  | .hbm, ⟨73, _⟩ => ⟨S320000, .i32⟩
  | .hbm, ⟨74, _⟩ => ⟨S320000x1, .i32⟩
  | .hbm, ⟨75, _⟩ => ⟨S320000x512, .f32⟩
  | .hbm, ⟨76, _⟩ => ⟨S320000x512, .f32⟩
  | .hbm, ⟨77, _⟩ => ⟨S320000x512, .f32⟩
  | .hbm, ⟨78, _⟩ => ⟨S_, .f32⟩
  | .hbm, ⟨79, _⟩ => ⟨S40000x512, .f32⟩
  | .hbm, ⟨80, _⟩ => ⟨S320000x1, .i32⟩
  | .hbm, ⟨81, _⟩ => ⟨S40000x512, .f32⟩
  | .hbm, ⟨82, _⟩ => ⟨S40000x512, .f32⟩
  | .hbm, ⟨83, _⟩ => ⟨S_, .f32⟩
  | .hbm, ⟨84, _⟩ => ⟨S40000x512, .f32⟩
  | .hbm, ⟨85, _⟩ => ⟨S40000x512, .f32⟩
  | .hbm, ⟨86, _⟩ => ⟨S40000x512, .f32⟩
  | .hbm, ⟨87, _⟩ => ⟨S320000x1, .f32⟩
  | .hbm, ⟨88, _⟩ => ⟨S_, .i32⟩
  | .hbm, ⟨89, _⟩ => ⟨S320000, .i32⟩
  | .hbm, ⟨90, _⟩ => ⟨S320000, .i1⟩
  | .hbm, ⟨91, _⟩ => ⟨S_, .i32⟩
  | .hbm, ⟨92, _⟩ => ⟨S320000, .i32⟩
  | .hbm, ⟨93, _⟩ => ⟨S320000, .i32⟩
  | .hbm, ⟨94, _⟩ => ⟨S320000, .i32⟩
  | .hbm, ⟨95, _⟩ => ⟨S320000x1, .i32⟩
  | .hbm, ⟨96, _⟩ => ⟨S320000x512, .f32⟩
  | .hbm, ⟨97, _⟩ => ⟨S320000x512, .f32⟩
  | .hbm, ⟨98, _⟩ => ⟨S320000x512, .f32⟩
  | .hbm, ⟨99, _⟩ => ⟨S_, .f32⟩
  | .hbm, ⟨100, _⟩ => ⟨S40000x512, .f32⟩
  | .hbm, ⟨101, _⟩ => ⟨S320000x1, .i32⟩
  | .hbm, ⟨102, _⟩ => ⟨S40000x512, .f32⟩
  | .hbm, ⟨103, _⟩ => ⟨S40000x512, .f32⟩
  | .hbm, ⟨104, _⟩ => ⟨S_, .f32⟩
  | .hbm, ⟨105, _⟩ => ⟨S40000x512, .f32⟩
  | .hbm, ⟨106, _⟩ => ⟨S40000x512, .f32⟩
  | .hbm, ⟨107, _⟩ => ⟨S40000x512, .f32⟩
  | .hbm, ⟨108, _⟩ => ⟨S1x40000x512, .f32⟩
  | .hbm, ⟨109, _⟩ => ⟨S1x40000x512, .f32⟩
  | .hbm, ⟨110, _⟩ => ⟨S1x40000x512, .f32⟩
  | .hbm, ⟨111, _⟩ => ⟨S1x40000x512, .f32⟩
  | .hbm, ⟨112, _⟩ => ⟨S1x40000x512, .f32⟩
  | .hbm, ⟨113, _⟩ => ⟨S1x40000x512, .f32⟩
  | .hbm, ⟨114, _⟩ => ⟨S6x40000x512, .f32⟩
  | .hbm, ⟨115, _⟩ => ⟨S6x40000x64x8, .f32⟩
  | .hbm, ⟨116, _⟩ => ⟨S8x40000x64x6, .f32⟩
  | .hbm, ⟨117, _⟩ => ⟨S320000x384, .f32⟩
  | .hbm, ⟨118, _⟩ => ⟨S320000x64, .f32⟩
  | .hbm, ⟨119, _⟩ => ⟨S8x40000x64, .f32⟩
  | _, _ => ⟨S8x40000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_9 : Ref sig .tc := ⟨.hbm, 67, rfl⟩
abbrev main_v51 : Ref sig .tc := ⟨.hbm, 68, rfl⟩
abbrev main_v52 : Ref sig .tc := ⟨.hbm, 69, rfl⟩
abbrev main_c_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_13 : Ref sig .tc := ⟨.hbm, 88, rfl⟩
abbrev main_v68 : Ref sig .tc := ⟨.hbm, 89, rfl⟩
abbrev main_v69 : Ref sig .tc := ⟨.hbm, 90, rfl⟩
abbrev main_c_14 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_16 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩

abbrev nD : Nat := 1
abbrev τ : Topo := Topo.v7x

variable {F : FTy → Type} [FloatOps F]

class Facts₀ : Prop where
  transposes_S8x40000x64_S40000x64x8_1_2_0 : S8x40000x64.Transposes [1, 2, 0] S40000x64x8
  shapeCasts_S40000x64x8_S40000x512 : S40000x64x8.ShapeCasts S40000x512
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x512_0_1 : S320000x1.BroadcastsInDim S320000x512 (![0, 1] : Fin 2 → Fin S320000x512.rank)
  bcast_S_S40000x512 : S_.BroadcastsInDim S40000x512 (![] : Fin 0 → Fin S40000x512.rank)
  bcast_S40000x512_S1x40000x512_1_2 : S40000x512.BroadcastsInDim S1x40000x512 (![1, 2] : Fin 2 → Fin S1x40000x512.rank)
  concatenates_S1x40000x512_S1x40000x512_S1x40000x512_S1x40000x512_S1x40000x512_S1x40000x512_S6x40000x512_d0 : Shape.Concatenates [S1x40000x512, S1x40000x512, S1x40000x512, S1x40000x512, S1x40000x512, S1x40000x512] S6x40000x512 0
  shapeCasts_S6x40000x512_S6x40000x64x8 : S6x40000x512.ShapeCasts S6x40000x64x8
  transposes_S6x40000x64x8_S8x40000x64x6_3_1_2_0 : S6x40000x64x8.Transposes [3, 1, 2, 0] S8x40000x64x6
  shapeCasts_S8x40000x64x6_S320000x384 : S8x40000x64x6.ShapeCasts S320000x384
  shapeCasts_S320000x64_S8x40000x64 : S320000x64.ShapeCasts S8x40000x64
  gather_S40000x512_S320000x1_S320000x512_1_0_n_n_0_1_1512_wf : GatherDims.WF S40000x512 S320000x1 S320000x512 [1] [0] [] [0] [] 1 ![1, 512]
  scatter_S40000x512_S320000x1_S320000x512_1_0_0_1_wf : ScatterDims.WF S40000x512 S320000x1 S320000x512 [1] [0] [0] 1
  dot_S320000x384_S384x64_S320000x64_1_0_0_1_n_n_wf : DotDims.WF S320000x384 S384x64 S320000x64 [1] [0] [0] [1] [] []

variable [Facts₀]

def gather_S40000x512_S320000x1_S320000x512_1_0_n_n_0_1_1512 : GatherDims S40000x512 S320000x1 S320000x512 where
  offsetDims := [1]
  collapsedSliceDims := [0]
  operandBatchingDims := []
  startIndicesBatchingDims := []
  startIndexMap := [0]
  indexVectorDim := 1
  sliceSizes := ![1, 512]
  wf := gather_S40000x512_S320000x1_S320000x512_1_0_n_n_0_1_1512_wf
def scatter_S40000x512_S320000x1_S320000x512_1_0_0_1 : ScatterDims S40000x512 S320000x1 S320000x512 where
  updateWindowDims := [1]
  insertedWindowDims := [0]
  scatterDimsToOperandDims := [0]
  indexVectorDim := 1
  wf := scatter_S40000x512_S320000x1_S320000x512_1_0_0_1_wf
def dot_S320000x384_S384x64_S320000x64_1_0_0_1_n_n : DotDims S320000x384 S384x64 S320000x64 where
  lhsContracting := [1]
  rhsContracting := [0]
  lhsNonContracting := [0]
  rhsNonContracting := [1]
  lhsBatch := []
  rhsBatch := []
  wf := dot_S320000x384_S384x64_S320000x64_1_0_0_1_n_n_wf

class Facts : Prop extends Facts₀ where

variable [Facts]
-- ==== Proof.KernelFrame.lean ====
import proofs.«135487_j12360915878142_1_alg».proof.Proof.Gen.Kernel.Launch
import proofs.«135487_j12360915878142_1_alg».proof.Proof.Gen.Kernel.Skeleton
import proofs.«135487_j12360915878142_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The frame of the projection kernel's program

`@main` is a long stretch of host operations, one pipelined region, and one closing reshape. The region walks a
grid of 50 points; at each point it stages a 6400×384 block of rows of the operand the host stretch built, keeps the
whole 384×64 projection matrix staged from the first point on, and writes back a 6400×64 block of the result. The body
at a point reads the two staged blocks whole, rounds both to bf16, multiplies them with an f32 accumulator started at
zero, and stores the product over the whole output block (it also reads the output block once before overwriting it;
that read is never used).

This file proves that every weakly fair execution terminates without a fault, says what every array of the region
holds at the end in terms of the blocks the body was given (`run_main`), and concludes that the five argument arrays end
as they were launched (`frame`): four of them are touched by nothing but reads, and the fifth — the projection matrix —
is an input window of the region, which the pipeline only ever copies from.
-/

-- enumerating the 113 host operations one conjunct at a time recurses once per operation
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What each buffer of core `c` holds when the region is entered: the launch memory pushed through the host
    operations that precede the region, one after the other. -/
abbrev V0 (c : Dev nD) : Valuation τ sig (Elt F) := StableHlo.after (List.flatten [hostOps0]) (fun b => m (c, b))
/-- The same contents, looked up at a TensorCore reference. -/
abbrev V (c : Dev nD) (b : Ref sig .tc) : Buf (Elt F) ((c : Thread nD τ).loc b) := V0 m c (Proc.devRef .tc b)

/-- None of the operations before the region allocates a buffer: each overwrites a buffer that already exists. -/
theorem hostOps0_fresh : (hostOps0 : List (HloOp τ sig (Elt F))).Forall fun op => op.fresh = ∅ := by
  simp only [List.Forall]; repeat' constructor
/-- Nor does the reshape after it. -/
theorem hostOps1_fresh : (hostOps1 : List (HloOp τ sig (Elt F))).Forall fun op => op.fresh = ∅ := by
  simp only [List.Forall]; repeat' constructor

/-- `@main` is "host operations, the region, host operations": run from the launch memory it reaches the region with the
    buffers at `V`, and what is left to run after the region is the closing reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only unscoped TensorCore buffers; nothing being prefetched, every such buffer
    is either an array of the region or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp hostOps1_fresh) op hop
/-- And it writes its own result `main_v95`, which is none of the region's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  obtain rfl : op = StableHlo.reshape main_v94 main_v95 rfl shapeCasts_S320000x64_S8x40000x64 := by simpa using hop
  intro w
  fin_cases w <;> simp only [StableHlo.reshape_writes, Finset.mem_singleton] <;> exact StableHlo.devRef_ne_of_ne (by decide)

/-- Each host operation writes exactly one buffer, its result, and no result buffer is an argument of `@main`: the
    goal "no operation of the list writes `b`" splits into one inequality of references per operation, each decided. -/
local macro "no_host_write" : tactic => `(tactic| (
  simp only [hostOps0, hostOps1, List.flatten_cons, List.flatten_nil, List.append_nil, List.cons_append, List.nil_append,
    List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)))

/-- No operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by no_host_write))
/-- Nor `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by no_host_write))
/-- Nor `main_arg2`, the projection matrix. -/
theorem V_main_arg2 (c : Dev nD) : V m c main_arg2 = m ((c : Thread nD τ).loc main_arg2) :=
  StableHlo.after_of_forall_not_mem (b := Proc.devRef .tc main_arg2) _ _ (List.forall_iff_forall_mem.mp (by no_host_write))
/-- Nor `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by no_host_write))
/-- Nor `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by no_host_write))

/-- The closing reshape does not write `main_arg0` either, and `main_arg0` is no array of the region: after the whole
    program it still holds what it was launched with. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by no_host_write)),
    Pipeline.withArrays_of_ne _ c (V0 m c) _ main_arg0 (by exact (by decide : ∀ w, Pipeline.arrRef spec0 w ≠ main_arg0))]
  exact V_main_arg0 m c
/-- The same of `main_arg1`. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by no_host_write)),
    Pipeline.withArrays_of_ne _ c (V0 m c) _ main_arg1 (by exact (by decide : ∀ w, Pipeline.arrRef spec0 w ≠ main_arg1))]
  exact V_main_arg1 m c
/-- The same of `main_arg3`. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by no_host_write)),
    Pipeline.withArrays_of_ne _ c (V0 m c) _ main_arg3 (by exact (by decide : ∀ w, Pipeline.arrRef spec0 w ≠ main_arg3))]
  exact V_main_arg3 m c
/-- The same of `main_arg4`. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by no_host_write)),
    Pipeline.withArrays_of_ne _ c (V0 m c) _ main_arg4 (by exact (by decide : ∀ w, Pipeline.arrRef spec0 w ≠ main_arg4))]
  exact V_main_arg4 m c

/-! ## The blocks the body is given -/

/-- Window `w`'s block at grid point `t`: the rectangle of the window's array that the point's block index names, read
    off the array as the region finds it. For window 0 these are rows `6400·t … 6400·t + 6399` of the 320000×384 operand;
    for window 1 the whole projection matrix, at every point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window is fetched at every point, so its staging buffer holds the point's block when the body starts —
    for any proof data whose array is the region-entry contents and whose body leaves the staged block alone. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The projection matrix is fetched at the first point only. At a later point nothing was copied in, but its block index
    has not moved (it is the constant `(0, 0)`), the body left the buffer as it found it, and so the buffer still holds
    the very block a fetch would bring: the window's block at this point too. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body does to its three staging buffers -/

/-- The body's accesses are all of whole buffers: the rectangle at offset `(0, 0)` with the buffer's own extents. -/
abbrev rectX : Rect S6400x384 := Rect.unit (s := S6400x384) ![0, 0] S6400x384.size inb_S6400x384_S6400x384_0_0
abbrev rectW : Rect S384x64 := Rect.unit (s := S384x64) ![0, 0] S384x64.size inb_S384x64_S384x64_0_0
abbrev rectOut : Rect S6400x64 := Rect.unit (s := S6400x64) ![0, 0] S6400x64.size inb_S6400x64_S6400x64_0_0

/-- The output staging buffer after the body, as a function of what the two input buffers read: the one store's value —
    the bf16-rounded product of the two blocks — laid over the whole buffer. -/
def out0_2 (x0 : Vec F S6400x384 .f32) (x1 : Vec F S384x64 .f32) : Vec F S6400x64 .f32 :=
  View.canon [⟨rectOut, k0_pay1 (View.ld x0 rectX) (View.ld x1 rectW)⟩]

/-- The one store's rectangle is the whole buffer, so every index of the buffer lies in it. -/
theorem cover0_2 (p0 : Vec F S6400x64 .f32) (y : S6400x64.Idx) :
    ∃ pc ∈ ([⟨rectOut, p0⟩] : List (View.Piece (Elt F) S6400x64 .f32)), y ∈ pc.1.set :=
  View.cover_of_tiled [⟨rectOut, p0⟩] S6400x64.size (by rfl) y

/-! ## The body's run -/

set_option maxHeartbeats 1000000 in
/-- The body on three whole staging buffers — the inputs reading `x0` and `x1`, the output holding anything — runs
    without a fault, leaves the inputs as they were, and leaves the output reading `out0_2 x0 x1`: it loads both
    inputs whole, loads the output (a value it never uses), and stores the product over the whole output, which
    erases whatever the buffer held. -/
theorem sound_kernel (c : Dev nD) (E : Set ℕ) (i : grid0.Coords)
    (arg1 : Memref sig .tc .vmem S6400x384 .f32) (harg1 : arg1.IsWhole)
    (arg2 : Memref sig .tc .vmem S384x64 .f32) (harg2 : arg2.IsWhole)
    (arg3 : Memref sig .tc .vmem S6400x64 .f32) (harg3 : arg3.IsWhole)
    (x0 : Vec F S6400x384 .f32) (x1 : Vec F S384x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_matmul_kernel i arg1 harg1 arg2 harg2 arg3 harg3) K := by
  simp only [cc0__proj_matmul_kernel_eq_skeleton]; unfold cc0__proj_matmul_kernel_skel
  unfold owns
  iintro ⟨⟨%f0, %hf0, H0⟩, ⟨%f1, %hf1, H1⟩, ⟨%d2, %f2, -, H2⟩, Hk⟩
  subst hf0 hf1
  -- the three loads and the store, symbolically: the inputs' contents are untouched, the output's are the old
  -- contents with the product written through the whole-buffer rectangle
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- a write that covers the buffer reads back as the written value alone, whatever was there before
  exact View.read_writes_eq_canon _ _ _ (cover0_2 _)

/-! ## The proof data of the region -/

/-- What the launch theorem is told about the region on core `c`: each window's array holds the region-entry contents;
    after the body at point `t` the two input buffers still hold their blocks and the output buffer holds
    `out0_2` of them; the region's invariant is the library's plain one (the scoped buffers that are no staging buffer,
    and the generator register, untouched); full ownership of every buffer; no transfer left owing. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The arrays of the proof data are the region-entry contents (read off the definition; the long fold behind `V`
    stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's staging buffer holds its block when the body starts, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the pipeline hands the body at point `t`: the invariant, the core's owed transfers, and the three current
    staging buffers, each holding what the proof data says it holds before the body; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it must hand back: the same, the buffers now at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold the point's blocks, so `sound_kernel` applies at those blocks; the
    invariant and the owed transfers are not touched and pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation: the body meets its contract at every point of the grid. -/
theorem body_obligation (c : Dev nD) : BodyObligation (dats (F := F) m 0 c) (defs₀ (F := F)) Variants.none () Set.univ := fun t => by
  rw [bigSep_W0, bigSep_W0]
  exact sound_body m c t

/-! ## The run, and the arguments at the end -/

-- the launch theorem's implicit arguments are found by unifying its conclusion with the statement, which unfolds plain
-- definitions inside a metavariable's type
set_option backward.isDefEq.respectTransparency.types false in
/-- From any launch memory with every semaphore at zero, every weakly fair execution of `@main` on the TensorCores
    terminates without a fault, and at the end each array of the region holds what the proof data computes for it —
    an input array its region-entry contents, the output array those overwritten block by block by what the body left —
    while every other unscoped buffer holds what the closing reshape leaves of the region-entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post from any run to `FramePost` whose proof data has the region-entry contents as its arrays.
    `main_arg2` is the array of input window 1: the pipeline never writes an input's array, so it ends at its
    region-entry contents, which no earlier host operation wrote. The other four arguments are arrays of no window: they
    bypass the region, the closing reshape does not write them, and no earlier host operation did. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).1 1).trans (((dats 0 c).arrAt_in 1 rfl _).trans ((hA c 1).trans (V_main_arg2 m c))),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-- The frame: `@main` runs to the end without a fault and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Frame

end
-- ==== Proof.KernelIdealFrame.lean ====
import proofs.«135487_j12360915878142_1_alg».proof.Proof.Gen.KernelIdeal.Launch
import proofs.«135487_j12360915878142_1_alg».proof.Proof.Gen.KernelIdeal.Skeleton
import proofs.«135487_j12360915878142_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The frame of the projection kernel's program

`@main` is a long stretch of host operations, one pipelined region, and one closing reshape. The region walks a
grid of 50 points; at each point it stages a 6400×384 block of rows of the operand the host stretch built, keeps the
whole 384×64 projection matrix staged from the first point on, and writes back a 6400×64 block of the result. The body
at a point reads the two staged blocks whole, rounds both to bf16, multiplies them with an f32 accumulator started at
zero, and stores the product over the whole output block (it also reads the output block once before overwriting it;
that read is never used).

This file proves that every weakly fair execution terminates without a fault, says what every array of the region
holds at the end in terms of the blocks the body was given (`run_main`), and concludes that the five argument arrays end
as they were launched (`frame`): four of them are touched by nothing but reads, and the fifth — the projection matrix —
is an input window of the region, which the pipeline only ever copies from.
-/

-- enumerating the 113 host operations one conjunct at a time recurses once per operation
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What each buffer of core `c` holds when the region is entered: the launch memory pushed through the host
    operations that precede the region, one after the other. -/
abbrev V0 (c : Dev nD) : Valuation τ sig (Elt F) := StableHlo.after (List.flatten [hostOps0]) (fun b => m (c, b))
/-- The same contents, looked up at a TensorCore reference. -/
abbrev V (c : Dev nD) (b : Ref sig .tc) : Buf (Elt F) ((c : Thread nD τ).loc b) := V0 m c (Proc.devRef .tc b)

/-- None of the operations before the region allocates a buffer: each overwrites a buffer that already exists. -/
theorem hostOps0_fresh : (hostOps0 : List (HloOp τ sig (Elt F))).Forall fun op => op.fresh = ∅ := by
  simp only [List.Forall]; repeat' constructor
/-- Nor does the reshape after it. -/
theorem hostOps1_fresh : (hostOps1 : List (HloOp τ sig (Elt F))).Forall fun op => op.fresh = ∅ := by
  simp only [List.Forall]; repeat' constructor

/-- `@main` is "host operations, the region, host operations": run from the launch memory it reaches the region with the
    buffers at `V`, and what is left to run after the region is the closing reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only unscoped TensorCore buffers; nothing being prefetched, every such buffer
    is either an array of the region or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp hostOps1_fresh) op hop
/-- And it writes its own result `main_v95`, which is none of the region's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  obtain rfl : op = StableHlo.reshape main_v94 main_v95 rfl shapeCasts_S320000x64_S8x40000x64 := by simpa using hop
  intro w
  fin_cases w <;> simp only [StableHlo.reshape_writes, Finset.mem_singleton] <;> exact StableHlo.devRef_ne_of_ne (by decide)

/-- Each host operation writes exactly one buffer, its result, and no result buffer is an argument of `@main`: the
    goal "no operation of the list writes `b`" splits into one inequality of references per operation, each decided. -/
local macro "no_host_write" : tactic => `(tactic| (
  simp only [hostOps0, hostOps1, List.flatten_cons, List.flatten_nil, List.append_nil, List.cons_append, List.nil_append,
    List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)))

/-- No operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by no_host_write))
/-- Nor `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by no_host_write))
/-- Nor `main_arg2`, the projection matrix. -/
theorem V_main_arg2 (c : Dev nD) : V m c main_arg2 = m ((c : Thread nD τ).loc main_arg2) :=
  StableHlo.after_of_forall_not_mem (b := Proc.devRef .tc main_arg2) _ _ (List.forall_iff_forall_mem.mp (by no_host_write))
/-- Nor `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by no_host_write))
/-- Nor `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by no_host_write))

/-- The closing reshape does not write `main_arg0` either, and `main_arg0` is no array of the region: after the whole
    program it still holds what it was launched with. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by no_host_write)),
    Pipeline.withArrays_of_ne _ c (V0 m c) _ main_arg0 (by exact (by decide : ∀ w, Pipeline.arrRef spec0 w ≠ main_arg0))]
  exact V_main_arg0 m c
/-- The same of `main_arg1`. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by no_host_write)),
    Pipeline.withArrays_of_ne _ c (V0 m c) _ main_arg1 (by exact (by decide : ∀ w, Pipeline.arrRef spec0 w ≠ main_arg1))]
  exact V_main_arg1 m c
/-- The same of `main_arg3`. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by no_host_write)),
    Pipeline.withArrays_of_ne _ c (V0 m c) _ main_arg3 (by exact (by decide : ∀ w, Pipeline.arrRef spec0 w ≠ main_arg3))]
  exact V_main_arg3 m c
/-- The same of `main_arg4`. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by no_host_write)),
    Pipeline.withArrays_of_ne _ c (V0 m c) _ main_arg4 (by exact (by decide : ∀ w, Pipeline.arrRef spec0 w ≠ main_arg4))]
  exact V_main_arg4 m c

/-! ## The blocks the body is given -/

/-- Window `w`'s block at grid point `t`: the rectangle of the window's array that the point's block index names, read
    off the array as the region finds it. For window 0 these are rows `6400·t … 6400·t + 6399` of the 320000×384 operand;
    for window 1 the whole projection matrix, at every point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window is fetched at every point, so its staging buffer holds the point's block when the body starts —
    for any proof data whose array is the region-entry contents and whose body leaves the staged block alone. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The projection matrix is fetched at the first point only. At a later point nothing was copied in, but its block index
    has not moved (it is the constant `(0, 0)`), the body left the buffer as it found it, and so the buffer still holds
    the very block a fetch would bring: the window's block at this point too. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body does to its three staging buffers -/

/-- The body's accesses are all of whole buffers: the rectangle at offset `(0, 0)` with the buffer's own extents. -/
abbrev rectX : Rect S6400x384 := Rect.unit (s := S6400x384) ![0, 0] S6400x384.size inb_S6400x384_S6400x384_0_0
abbrev rectW : Rect S384x64 := Rect.unit (s := S384x64) ![0, 0] S384x64.size inb_S384x64_S384x64_0_0
abbrev rectOut : Rect S6400x64 := Rect.unit (s := S6400x64) ![0, 0] S6400x64.size inb_S6400x64_S6400x64_0_0

/-- The output staging buffer after the body, as a function of what the two input buffers read: the one store's value —
    the bf16-rounded product of the two blocks — laid over the whole buffer. -/
def out0_2 (x0 : Vec F S6400x384 .f32) (x1 : Vec F S384x64 .f32) : Vec F S6400x64 .f32 :=
  View.canon [⟨rectOut, k0_pay1 (View.ld x0 rectX) (View.ld x1 rectW)⟩]

/-- The one store's rectangle is the whole buffer, so every index of the buffer lies in it. -/
theorem cover0_2 (p0 : Vec F S6400x64 .f32) (y : S6400x64.Idx) :
    ∃ pc ∈ ([⟨rectOut, p0⟩] : List (View.Piece (Elt F) S6400x64 .f32)), y ∈ pc.1.set :=
  View.cover_of_tiled [⟨rectOut, p0⟩] S6400x64.size (by rfl) y

/-! ## The body's run -/

set_option maxHeartbeats 1000000 in
/-- The body on three whole staging buffers — the inputs reading `x0` and `x1`, the output holding anything — runs
    without a fault, leaves the inputs as they were, and leaves the output reading `out0_2 x0 x1`: it loads both
    inputs whole, loads the output (a value it never uses), and stores the product over the whole output, which
    erases whatever the buffer held. -/
theorem sound_kernel (c : Dev nD) (E : Set ℕ) (i : grid0.Coords)
    (arg1 : Memref sig .tc .vmem S6400x384 .f32) (harg1 : arg1.IsWhole)
    (arg2 : Memref sig .tc .vmem S384x64 .f32) (harg2 : arg2.IsWhole)
    (arg3 : Memref sig .tc .vmem S6400x64 .f32) (harg3 : arg3.IsWhole)
    (x0 : Vec F S6400x384 .f32) (x1 : Vec F S384x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_matmul_kernel i arg1 harg1 arg2 harg2 arg3 harg3) K := by
  simp only [cc0__proj_matmul_kernel_eq_skeleton]; unfold cc0__proj_matmul_kernel_skel
  unfold owns
  iintro ⟨⟨%f0, %hf0, H0⟩, ⟨%f1, %hf1, H1⟩, ⟨%d2, %f2, -, H2⟩, Hk⟩
  subst hf0 hf1
  -- the three loads and the store, symbolically: the inputs' contents are untouched, the output's are the old
  -- contents with the product written through the whole-buffer rectangle
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- a write that covers the buffer reads back as the written value alone, whatever was there before
  exact View.read_writes_eq_canon _ _ _ (cover0_2 _)

/-! ## The proof data of the region -/

/-- What the launch theorem is told about the region on core `c`: each window's array holds the region-entry contents;
    after the body at point `t` the two input buffers still hold their blocks and the output buffer holds
    `out0_2` of them; the region's invariant is the library's plain one (the scoped buffers that are no staging buffer,
    and the generator register, untouched); full ownership of every buffer; no transfer left owing. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The arrays of the proof data are the region-entry contents (read off the definition; the long fold behind `V`
    stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's staging buffer holds its block when the body starts, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the pipeline hands the body at point `t`: the invariant, the core's owed transfers, and the three current
    staging buffers, each holding what the proof data says it holds before the body; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it must hand back: the same, the buffers now at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold the point's blocks, so `sound_kernel` applies at those blocks; the
    invariant and the owed transfers are not touched and pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation: the body meets its contract at every point of the grid. -/
theorem body_obligation (c : Dev nD) : BodyObligation (dats (F := F) m 0 c) (defs₀ (F := F)) Variants.none () Set.univ := fun t => by
  rw [bigSep_W0, bigSep_W0]
  exact sound_body m c t

/-! ## The run, and the arguments at the end -/

-- the launch theorem's implicit arguments are found by unifying its conclusion with the statement, which unfolds plain
-- definitions inside a metavariable's type
set_option backward.isDefEq.respectTransparency.types false in
/-- From any launch memory with every semaphore at zero, every weakly fair execution of `@main` on the TensorCores
    terminates without a fault, and at the end each array of the region holds what the proof data computes for it —
    an input array its region-entry contents, the output array those overwritten block by block by what the body left —
    while every other unscoped buffer holds what the closing reshape leaves of the region-entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post from any run to `FramePost` whose proof data has the region-entry contents as its arrays.
    `main_arg2` is the array of input window 1: the pipeline never writes an input's array, so it ends at its
    region-entry contents, which no earlier host operation wrote. The other four arguments are arrays of no window: they
    bypass the region, the closing reshape does not write them, and no earlier host operation did. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).1 1).trans (((dats 0 c).arrAt_in 1 rfl _).trans ((hA c 1).trans (V_main_arg2 m c))),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-- The frame: `@main` runs to the end without a fault and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Frame

end
-- ==== Proof.Projection.lean ====
import Idealize.ShloMosaic.PureOps.Ideal
import Idealize.ShloMosaic.Lib.ValueIdx

/-!
# The dense projection, index by index

Both programs end by contracting the feature table `X : [320000, 384]` (one row per (batch, vertex) pair, the
384 columns being the 64 input features at each of the 6 Chebyshev orders) against the weights `W : [384, 64]`.
Over the extended reals the entry at row `r`, output feature `n` is the finite sum `∑ k, X (r, k) * W (k, n)`.
The same sum, over a tile of rows, is what one grid point of the kernel computes.
-/

noncomputable section

open scoped BigOperators

namespace Cert.Projection

open Idealize.ShloMosaic Idealize.ShloMosaic.ValueIdx

/-- Row `r`, contraction position `k`, as an index of a table with `R` rows and 384 columns. -/
abbrev atRow {R : Nat} (r : Fin R) (k : Fin 384) : (⟨2, ![R, 384]⟩ : Shape).Idx := ix2 r k

/-- Contraction position `k`, output feature `n`, as an index of the weights. -/
abbrev atCol (k : Fin 384) (n : Fin 64) : (⟨2, ![384, 64]⟩ : Shape).Idx := ix2 k n

/-- The product of a table of `R` rows with the weights: entry `(r, n)` is `∑ k, X (r, k) * W (k, n)`. -/
def rows {R : Nat} (X : (⟨2, ![R, 384]⟩ : Shape).Idx → EReal) (W : (⟨2, ![384, 64]⟩ : Shape).Idx → EReal) :
    (⟨2, ![R, 64]⟩ : Shape).Idx → EReal :=
  fun i => ∑ k : Fin 384, X (atRow ⟨(i 0).val, (i 0).isLt⟩ k) * W (atCol k ⟨(i 1).val, (i 1).isLt⟩)

theorem rows_apply {R : Nat} (X : (⟨2, ![R, 384]⟩ : Shape).Idx → EReal) (W : (⟨2, ![384, 64]⟩ : Shape).Idx → EReal)
    (r : Fin R) (n : Fin 64) : rows X W (ix2 r n) = ∑ k : Fin 384, X (atRow r k) * W (atCol k n) := rfl

/-- A tile of rows of the product is the product of that tile of rows: if `x` holds rows `o, o+1, …` of `X`, then
    row `r` of `rows x W` is row `o + r` of `rows X W`. -/
theorem rows_tile {R T : Nat} (X : (⟨2, ![R, 384]⟩ : Shape).Idx → EReal) (W : (⟨2, ![384, 64]⟩ : Shape).Idx → EReal)
    (x : (⟨2, ![T, 384]⟩ : Shape).Idx → EReal) (o : Nat) (hx : ∀ (r : Fin T) (h : o + r.val < R) (k : Fin 384), x (atRow r k) = X (atRow ⟨o + r.val, h⟩ k))
    (r : Fin T) (h : o + r.val < R) (n : Fin 64) : rows x W (ix2 r n) = rows X W (ix2 ⟨o + r.val, h⟩ n) := by
  rw [rows_apply, rows_apply]
  exact Finset.sum_congr rfl fun k _ => by rw [hx r h k]

end Cert.Projection

end
-- ==== Proof.TileProduct.lean ====
import proofs.«135487_j12360915878142_1_alg».proof.Proof.Gen.KernelIdeal.Skeleton
import proofs.«135487_j12360915878142_1_alg».proof.Proof.Projection
import Idealize.ShloMosaic.Lib.ValueIdx
import Idealize.ShloMosaic.Lib.Pipeline.Value
import Idealize.ShloMosaic.PureOps.Ideal.Laws

/-!
# What one grid point stores

At a grid point the body holds a tile of 6400 rows of the feature table and the whole weight matrix, rounds both to
bf16 (the identity on extended reals), and multiplies them on the matrix unit into a zero accumulator. Read at row
`r`, output feature `n`, that is `∑ k, tile (r, k) * W (k, n)`: the projection of the tile.
-/

noncomputable section

open scoped BigOperators

namespace Cert.KernelIdeal.Tile

open Cert.KernelIdeal Cert.KernelIdeal.Gen Idealize.ShloMosaic Idealize.ShloMosaic.ValueIdx

/-- The contraction runs over one axis of 384 positions. -/
abbrev contr : dot_S6400x384_S384x64_S6400x64_1_0_0_1_n_n.contr.Idx ≃ Fin 384 :=
  contrEquiv1 dot_S6400x384_S384x64_S6400x64_1_0_0_1_n_n 384 rfl rfl

/-- The left operand's row is the output's row; -/
theorem lhs_row (i : S6400x64.Idx) (q : dot_S6400x384_S384x64_S6400x64_1_0_0_1_n_n.contr.Idx) :
    (dot_S6400x384_S384x64_S6400x64_1_0_0_1_n_n.lhsIdx i q 0).val = (i 0).val := by
  unfold DotDims.lhsIdx
  rw [dif_neg (show ¬(0 : Fin S6400x384.rank) ∈ dot_S6400x384_S384x64_S6400x64_1_0_0_1_n_n.lhsBatch by decide),
    dif_pos (show (0 : Fin S6400x384.rank) ∈ dot_S6400x384_S384x64_S6400x64_1_0_0_1_n_n.lhsNonContracting by decide)]
  rfl
/-- its column the contraction position. -/
theorem lhs_col (i : S6400x64.Idx) (q : dot_S6400x384_S384x64_S6400x64_1_0_0_1_n_n.contr.Idx) :
    (dot_S6400x384_S384x64_S6400x64_1_0_0_1_n_n.lhsIdx i q 1).val = (q ⟨0, by decide⟩).val :=
  dot_S6400x384_S384x64_S6400x64_1_0_0_1_n_n.lhsIdx_val_of_single rfl i q
/-- The right operand's row is the contraction position; -/
theorem rhs_row (i : S6400x64.Idx) (q : dot_S6400x384_S384x64_S6400x64_1_0_0_1_n_n.contr.Idx) :
    (dot_S6400x384_S384x64_S6400x64_1_0_0_1_n_n.rhsIdx i q 0).val = (q ⟨0, by decide⟩).val :=
  dot_S6400x384_S384x64_S6400x64_1_0_0_1_n_n.rhsIdx_val_of_single rfl i q
/-- its column the output's column. -/
theorem rhs_col (i : S6400x64.Idx) (q : dot_S6400x384_S384x64_S6400x64_1_0_0_1_n_n.contr.Idx) :
    (dot_S6400x384_S384x64_S6400x64_1_0_0_1_n_n.rhsIdx i q 1).val = (i 1).val := by
  unfold DotDims.rhsIdx
  rw [dif_neg (show ¬(1 : Fin S384x64.rank) ∈ dot_S6400x384_S384x64_S6400x64_1_0_0_1_n_n.rhsBatch by decide),
    dif_pos (show (1 : Fin S384x64.rank) ∈ dot_S6400x384_S384x64_S6400x64_1_0_0_1_n_n.rhsNonContracting by decide)]
  rfl

/-- The left operand is read at the output's row and the contraction position. -/
theorem lhs_at (r : Fin 6400) (n : Fin 64) (k : Fin 384) :
    dot_S6400x384_S384x64_S6400x64_1_0_0_1_n_n.lhsIdx (ix2 r n) (contr.symm k) = Cert.Projection.atRow r k := by
  have hk := contrEquiv1_symm_val dot_S6400x384_S384x64_S6400x64_1_0_0_1_n_n 384 rfl rfl k
  exact funext fun a => Fin.ext (by
    match a with
    | ⟨0, _⟩ => exact lhs_row _ _
    | ⟨1, _⟩ => exact (lhs_col _ _).trans hk)

/-- The right operand is read at the contraction position and the output's column. -/
theorem rhs_at (r : Fin 6400) (n : Fin 64) (k : Fin 384) :
    dot_S6400x384_S384x64_S6400x64_1_0_0_1_n_n.rhsIdx (ix2 r n) (contr.symm k) = Cert.Projection.atCol k n := by
  have hk := contrEquiv1_symm_val dot_S6400x384_S384x64_S6400x64_1_0_0_1_n_n 384 rfl rfl k
  exact funext fun a => Fin.ext (by
    match a with
    | ⟨0, _⟩ => exact (rhs_row _ _).trans hk
    | ⟨1, _⟩ => exact rhs_col _ _)

/-- The stored value of a grid point, at the extended reals, is the projection of the tile it loaded. -/
theorem payload_eq (x0 : Vec Ideal S6400x384 .f32) (x1 : Vec Ideal S384x64 .f32) (r : Fin 6400) (n : Fin 64) :
    k0_pay1 (F := Ideal) x0 x1 (ix2 r n) = Cert.Projection.rows (R := 6400) x0 x1 (ix2 r n) := by
  rw [Cert.Projection.rows_apply]
  unfold k0_pay1
  refine (Ideal.matmul_constant_zero_apply dot_S6400x384_S384x64_S6400x64_1_0_0_1_n_n none _ _ (ix2 r n)).trans ?_
  rw [← Equiv.sum_comp contr.symm]
  refine Finset.sum_congr rfl fun k _ => ?_
  rw [lhs_at r n k, rhs_at r n k]
  show (shapeCast S6400x384 x0 Facts₀.shapeCasts_S6400x384_S6400x384) (Cert.Projection.atRow r k) * x1 (Cert.Projection.atCol k n) = _
  rw [shapeCast_self]

end Cert.KernelIdeal.Tile

end
-- ==== Proof.TileBlocks.lean ====
import proofs.«135487_j12360915878142_1_alg».proof.Proof.Gen.KernelIdeal.Launch
import proofs.«135487_j12360915878142_1_alg».proof.Proof.Gen.KernelIdeal.Points
import proofs.«135487_j12360915878142_1_alg».proof.Proof.TileProduct
import proofs.«135487_j12360915878142_1_alg».proof.Proof.Projection
import Idealize.ShloMosaic.Lib.Pipeline.Value
import Idealize.ShloMosaic.Lib.ValueIdx

/-!
# From tiles to the whole product

The grid has 50 points. Point `t` is handed rows `6400 t … 6400 t + 6399` of the feature table (all 384 columns) and
the whole weight matrix, and writes back rows `6400 t … 6400 t + 6399` of the output (all 64 columns). Since a row of
the product depends only on the same row of the table, what point `t` writes is exactly that block of the product of the
WHOLE table with the weights; and the 50 blocks tile the 320000 rows.
-/

noncomputable section

open scoped BigOperators

namespace Cert.KernelIdeal.Tiles

open Cert.KernelIdeal Cert.KernelIdeal.Gen Idealize.ShloMosaic Idealize.ShloMosaic.TcCoe Idealize.SL.Sem Idealize.ShloMosaic.ValueIdx

theorem zeros : (![0, 0] : Fin 2 → Nat) = fun _ => 0 := funext fun a => by fin_cases a <;> rfl

/-- The printed index maps, decided over the 50 points: the table's and the output's block at point `t` is the
    `t`-th block of rows (there is one block of columns), and the weights have a single block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A stored value read at any index of the tile: the sum over the 384 contraction positions. -/
theorem payload_at (x0 : Vec Ideal S6400x384 .f32) (x1 : Vec Ideal S384x64 .f32) (j : S6400x64.Idx) :
    k0_pay1 (F := Ideal) x0 x1 j
      = ∑ k : Fin 384, x0 (Cert.Projection.atRow (R := 6400) ⟨(j 0).val, (j 0).isLt⟩ k) * x1 (Cert.Projection.atCol k ⟨(j 1).val, (j 1).isLt⟩) := by
  obtain ⟨r, n, rfl⟩ : ∃ (r : Fin 6400) (n : Fin 64), j = ix2 r n := ⟨j 0, j 1, eq_ix2 j⟩
  exact (Tile.payload_eq x0 x1 r n).trans (Cert.Projection.rows_apply _ _ r n)

set_option maxHeartbeats 1000000 in
/-- WHAT POINT `t` WRITES BACK, for any table `A0` and weights `A1` the region may find: the body's one whole-block
    store of the product of the blocks it loaded, cut to the block, is block `t` of the product of the whole arrays. -/
theorem tile_eq (A0 : S320000x384.Idx → Elt Ideal .f32) (A1 : S384x64.Idx → Elt Ideal .f32) (t : Fin cfg0.N) :
    (cfg0.win 2).cut (grid0.coords t)
        (View.canon [(⟨Rect.unit (s := S6400x64) ![0, 0] S6400x64.size Facts₀.inb_S6400x64_S6400x64_0_0,
          k0_pay1 (F := Ideal)
            (View.ld (((cfg0.win 0).blk t).view.read (Elt Ideal) A0) (Rect.unit (s := S6400x384) ![0, 0] S6400x384.size Facts₀.inb_S6400x384_S6400x384_0_0))
            (View.ld (((cfg0.win 1).blk t).view.read (Elt Ideal) A1) (Rect.unit (s := S384x64) ![0, 0] S384x64.size Facts₀.inb_S384x64_S384x64_0_0))⟩
          : View.Piece (Elt Ideal) S6400x64 .f32)])
      = ((cfg0.win 2).blk t).view.read (Elt Ideal) (Cert.Projection.rows (R := 320000) A0 A1) := by
  rw [View.canon_unit_zero zeros]
  simp only [View.ld_unit_zero (S := S6400x384) zeros, View.ld_unit_zero (S := S384x64) zeros]
  obtain ⟨e0, e1, e2, e3, e4, e5⟩ := index_facts t
  funext j
  refine (payload_at _ _ j).trans ?_
  show _ = ∑ k : Fin 384, A0 (Cert.Projection.atRow (R := 320000) ⟨((((cfg0.win 2).blk t).view.emb j) 0).val, ((((cfg0.win 2).blk t).view.emb j) 0).isLt⟩ k)
      * A1 (Cert.Projection.atCol k ⟨((((cfg0.win 2).blk t).view.emb j) 1).val, ((((cfg0.win 2).blk t).view.emb j) 1).isLt⟩)
  refine Finset.sum_congr rfl fun k _ => ?_
  have h0 : ((cfg0.win 0).blk t).view.emb (Cert.Projection.atRow (R := 6400) ⟨(j 0).val, (j 0).isLt⟩ k)
      = Cert.Projection.atRow (R := 320000) ⟨((((cfg0.win 2).blk t).view.emb j) 0).val, ((((cfg0.win 2).blk t).view.emb j) 0).isLt⟩ k := by
    funext a; apply Fin.ext
    match a with
    | ⟨0, _⟩ => show win0_0.index t (0 : Fin 2) * 6400 + 1 * (j 0).val = win0_2.index t (0 : Fin 2) * 6400 + 1 * (j 0).val; omega
    | ⟨1, _⟩ => show win0_0.index t (1 : Fin 2) * 384 + 1 * k.val = k.val; omega
  have h1 : ((cfg0.win 1).blk t).view.emb (Cert.Projection.atCol k ⟨(j 1).val, (j 1).isLt⟩)
      = Cert.Projection.atCol k ⟨((((cfg0.win 2).blk t).view.emb j) 1).val, ((((cfg0.win 2).blk t).view.emb j) 1).isLt⟩ := by
    funext a; apply Fin.ext
    match a with
    | ⟨0, _⟩ => show win0_1.index t (0 : Fin 2) * 384 + 1 * k.val = k.val; omega
    | ⟨1, _⟩ => show win0_1.index t (1 : Fin 2) * 64 + 1 * (j 1).val = win0_2.index t (1 : Fin 2) * 64 + 1 * (j 1).val; omega
  show A0 (((cfg0.win 0).blk t).view.emb (Cert.Projection.atRow (R := 6400) ⟨(j 0).val, (j 0).isLt⟩ k))
      * A1 (((cfg0.win 1).blk t).view.emb (Cert.Projection.atCol k ⟨(j 1).val, (j 1).isLt⟩)) = _
  rw [h0, h1]

/-- An index of the output array is in point `t`'s block iff each coordinate is in the block's range on its axis. -/
theorem mem_block (t : Fin cfg0.N) (i : S320000x64.Idx) :
    i ∈ ((cfg0.win 2).blk t).view.set ↔ ∀ a : Fin 2, win0_2.index t a * S6400x64.size a ≤ (i a).val ∧ (i a).val < win0_2.index t a * S6400x64.size a + S6400x64.size a := by
  show i ∈ ((View.whole main_v94).slice (win0_2.rect t)).set ↔ _
  rw [View.set_slice_whole, Rect.mem_set_unit]
  exact Iff.rfl

/-- The 50 blocks of 6400 rows tile the 320000 rows: row `r` is in the block of point `r / 6400`. -/
theorem cover (i : S320000x64.Idx) : ∃ t : Fin cfg0.N, (cfg0.win 2).flush t = true ∧ i ∈ ((cfg0.win 2).blk t).view.set := by
  have hi0 : (i 0).val < 320000 := (i 0).isLt
  have hi1 : (i 1).val < 64 := (i 1).isLt
  have hN : cfg0.N = 50 := N_0
  let t : Fin cfg0.N := ⟨(i 0).val / 6400, by rw [hN]; omega⟩
  obtain ⟨e0, e1, e2, e3, e4, e5⟩ := index_facts t
  have ht : t.val = (i 0).val / 6400 := rfl
  refine ⟨t, flush0_2 t, ?_⟩
  rw [mem_block]
  intro a
  match a with
  | ⟨0, _⟩ => show win0_2.index t (0 : Fin 2) * 6400 ≤ (i 0).val ∧ (i 0).val < win0_2.index t (0 : Fin 2) * 6400 + 6400; omega
  | ⟨1, _⟩ => show win0_2.index t (1 : Fin 2) * 64 ≤ (i 1).val ∧ (i 1).val < win0_2.index t (1 : Fin 2) * 64 + 64; omega

end Cert.KernelIdeal.Tiles

end
-- ==== Proof.FeatureTable.lean ====
import proofs.«135487_j12360915878142_1_alg».proof.Proof.Gen.KernelIdeal.Launch
import proofs.«135487_j12360915878142_1_alg».proof.Proof.RefStages
import Idealize.ShloMosaic.Lib.StableHlo.Run

/-!
# The feature table the region finds

Before the region both programs run the same 113 host operations on the same four arrays (the signal `x`, the edge
values, the edge rows and the edge columns): the transposed signal `x0`, then five times the rescaled Laplacian
`v ↦ scatter_add (vals * gather v cols) rows - v`, combined by the Chebyshev recurrence `x_{k+1} = 2 (L - I) x_k - x_{k-1}`,
and the six orders stacked and re-laid as one table of 320000 rows and 384 columns. So the array the kernel's first
window is staged from is, operation for operation, the value the reference's stage `val_main_v93` names.
-/

noncomputable section

namespace Cert.KernelIdeal.Features

open Cert.KernelIdeal Cert.KernelIdeal.Gen Idealize.ShloMosaic Idealize.ShloMosaic.TcCoe Idealize.SL.Sem Idealize.ShloMosaic.StableHlo

set_option maxRecDepth 8192 in
set_option maxHeartbeats 46000000 in
/-- After the host operations before the region, the table of stacked Chebyshev features is the reference's stage of
    the same name, of the launch contents of the four arrays it depends on. -/
theorem table_eq (m : (ℓ : Loc nD τ sig) → Buf (Elt Ideal) ℓ) (c : Dev nD) :
    StableHlo.after (hostOps0 (F := Ideal)) (fun b => m (c, b)) (Proc.devRef .tc main_v93)
      = Cert.ReferenceIdeal.Stages.val_main_v93 (F := Ideal) (m ((c.tc : Thread nD τ).loc main_arg0))
          (m ((c.tc : Thread nD τ).loc main_arg1)) (m ((c.tc : Thread nD τ).loc main_arg3)) (m ((c.tc : Thread nD τ).loc main_arg4)) := by
  after_results_simp <;> rfl

end Cert.KernelIdeal.Features

end
-- ==== Proof.KernelProduct.lean ====
import proofs.«135487_j12360915878142_1_alg».proof.Proof.KernelIdealFrame
import proofs.«135487_j12360915878142_1_alg».proof.Proof.TileBlocks
import proofs.«135487_j12360915878142_1_alg».proof.Proof.FeatureTable
import proofs.«135487_j12360915878142_1_alg».proof.Proof.Projection
import Idealize.ShloMosaic.Lib.Pipeline.Value
import Idealize.ShloMosaic.Lib.StableHlo.Run

/-!
# What the idealized kernel computes

The region's output array ends, block by block, at the product of the feature table and the weights as the region finds
them; the table is the stacked Chebyshev features of the launch arrays and the weights are the launch weights; and the
one host operation after the region re-lays the 320000 rows as [8, 40000]. So the program's result is the re-laid
projection, a function of the five launch arrays alone, and the five arrays end as launched.
-/

noncomputable section

namespace Cert.KernelIdeal.Product

open Cert.KernelIdeal Cert.KernelIdeal.Gen Cert.KernelIdeal.Frame Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- WHAT POINT `t` WRITES BACK is block `t` of the product of the table and the weights as the region finds them. -/
theorem flushed_eq (c : Dev nD) (t : Fin cfg0.N) :
    (dats m 0 c).flushed 2 t = ((cfg0.win 2).blk t).view.read (Elt Ideal)
      (Cert.Projection.rows (R := 320000) (V m c (Pipeline.arrRef spec0 0)) (V m c (Pipeline.arrRef spec0 1))) := by
  show (cfg0.win 2).cut (grid0.coords t) ((dats m 0 c).after 2 t) = _
  rw [after0_2]
  unfold out0_2 iblk
  exact Tiles.tile_eq _ _ t

/-- THE OUTPUT ARRAY after the region: the product of the table and the weights as the region finds them. -/
theorem final (c : Dev nD) : (dats m 0 c).arrAt 2 cfg0.N
    = Cert.Projection.rows (R := 320000) (V m c (Pipeline.arrRef spec0 0)) (V m c (Pipeline.arrRef spec0 1)) :=
  (dats m 0 c).arrAt_eq_of_cover 2 _ (fun t _ => flushed_eq m c t) Tiles.cover

/-- The table the region finds is the stacked Chebyshev features of the launch arrays. -/
theorem table (c : Dev nD) : V m c (Pipeline.arrRef spec0 0)
    = Cert.ReferenceIdeal.Stages.val_main_v93 (F := Ideal) (m ((c.tc : Thread nD τ).loc main_arg0))
        (m ((c.tc : Thread nD τ).loc main_arg1)) (m ((c.tc : Thread nD τ).loc main_arg3)) (m ((c.tc : Thread nD τ).loc main_arg4)) := by
  show StableHlo.after hostOps0 (fun b => m (c, b)) (Proc.devRef .tc main_v93) = _
  exact Features.table_eq m c

/-- The weights the region finds are the launch weights. -/
theorem weights (c : Dev nD) : V m c (Pipeline.arrRef spec0 1) = m ((c.tc : Thread nD τ).loc main_arg2) :=
  V_main_arg2 m c

/-- The one host operation after the region, from any contents: the result is the output array re-laid. -/
theorem closing_reshape (Wv : Valuation τ sig (Elt Ideal)) :
    StableHlo.after (hostOps1 (F := Ideal)) Wv (Proc.devRef .tc main_v95)
      = shapeCast S8x40000x64 (Wv (Proc.devRef .tc main_v94)) Facts₀.shapeCasts_S320000x64_S8x40000x64 := by
  after_results
  rfl

/-- The program's result after the run: the closing reshape of the output array the region left. -/
theorem result (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v95)
      = shapeCast S8x40000x64 (Cert.Projection.rows (R := 320000)
          (Cert.ReferenceIdeal.Stages.val_main_v93 (F := Ideal) (m ((c.tc : Thread nD τ).loc main_arg0))
            (m ((c.tc : Thread nD τ).loc main_arg1)) (m ((c.tc : Thread nD τ).loc main_arg3)) (m ((c.tc : Thread nD τ).loc main_arg4)))
          (m ((c.tc : Thread nD τ).loc main_arg2))) Facts₀.shapeCasts_S320000x64_S8x40000x64 := by
  refine ((h c).2 main_v95 (Pipeline.mem_restRefs_of main_v95 (by decide) (by decide))).trans ?_
  unfold Pipeline.afterTail₀
  show StableHlo.after hostOps1 _ (Proc.devRef .tc main_v95) = _
  rw [closing_reshape]
  refine congrArg (fun z => shapeCast S8x40000x64 z Facts₀.shapeCasts_S320000x64_S8x40000x64) ?_
  refine (Pipeline.withArrays_arr spec0 launch0.win.arr_inj c (V0 m c) _ 2).trans ((final m c).trans ?_)
  rw [table, weights]

/-- The idealized kernel's run with its result named: every weakly fair execution terminates, the result is the re-laid
    projection of the stacked Chebyshev features of the launch arrays, and the five arguments end as launched. -/
theorem run : θ_run defs (onTc (τ := τ) (main (F := Ideal))) ⟨m, fun _ => 0, ρ⟩ fun r => ∀ c : Dev nD,
      r.2.mem ((c.tc : Thread nD τ).loc main_v95)
        = shapeCast S8x40000x64 (Cert.Projection.rows (R := 320000)
            (Cert.ReferenceIdeal.Stages.val_main_v93 (F := Ideal) (m ((c.tc : Thread nD τ).loc main_arg0))
              (m ((c.tc : Thread nD τ).loc main_arg1)) (m ((c.tc : Thread nD τ).loc main_arg3)) (m ((c.tc : Thread nD τ).loc main_arg4)))
            (m ((c.tc : Thread nD τ).loc main_arg2))) Facts₀.shapeCasts_S320000x64_S8x40000x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨result m r h c,
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Product

end
-- ==== Proof.RefProduct.lean ====
import proofs.«135487_j12360915878142_1_alg».proof.Proof.RefStages
import proofs.«135487_j12360915878142_1_alg».proof.Proof.Projection

/-!
# The reference's product

The reference multiplies its feature table by the weights with one `dot_general` contracting the 384 columns, then
re-lays the 320000 rows as [8, 40000]. At the extended reals the product's entry `(r, n)` is `∑ k, X (r, k) * W (k, n)`.
-/

noncomputable section

open scoped BigOperators

namespace Cert.ReferenceIdeal.Product

open Cert.ReferenceIdeal Cert.ReferenceIdeal.Stages Idealize.ShloMosaic Idealize.ShloMosaic.ValueIdx

/-- The reference's `dot_general` stage is the projection of its feature table. -/
theorem product_eq (x0 : (⟨S8x40000x64, .f32⟩ : BufTy).Contents (Elt Ideal)) (x1 : (⟨S320000, .f32⟩ : BufTy).Contents (Elt Ideal))
    (x2 : (⟨S384x64, .f32⟩ : BufTy).Contents (Elt Ideal)) (x3 x4 : (⟨S320000, .i32⟩ : BufTy).Contents (Elt Ideal)) :
    val_main_v94 (F := Ideal) x0 x1 x2 x3 x4
      = Cert.Projection.rows (R := 320000) (val_main_v93 (F := Ideal) x0 x1 x3 x4) x2 := by
  funext i
  rw [val_main_v94_apply]
  generalize val_main_v93 (F := Ideal) x0 x1 x3 x4 = X
  obtain ⟨r, n, rfl⟩ : ∃ (r : Fin 320000) (n : Fin 64), i = ix2 r n := ⟨i 0, i 1, eq_ix2 i⟩
  rw [Cert.Projection.rows_apply]
  refine Finset.sum_congr rfl fun k _ => ?_
  have el : lidx_main_v94 (ix2 r n) k = Cert.Projection.atRow r k :=
    funext fun a => Fin.ext (by match a with | ⟨0, _⟩ => rfl | ⟨1, _⟩ => rfl)
  have er : ridx_main_v94 (ix2 r n) k = Cert.Projection.atCol k n :=
    funext fun a => Fin.ext (by match a with | ⟨0, _⟩ => rfl | ⟨1, _⟩ => rfl)
  rw [el, er]

/-- The reference's result: the projection of its feature table, re-laid as [8, 40000, 64]. -/
theorem result_eq (x0 : (⟨S8x40000x64, .f32⟩ : BufTy).Contents (Elt Ideal)) (x1 : (⟨S320000, .f32⟩ : BufTy).Contents (Elt Ideal))
    (x2 : (⟨S384x64, .f32⟩ : BufTy).Contents (Elt Ideal)) (x3 x4 : (⟨S320000, .i32⟩ : BufTy).Contents (Elt Ideal)) :
    val_main_v95 (F := Ideal) x0 x1 x2 x3 x4
      = shapeCast S8x40000x64 (Cert.Projection.rows (R := 320000) (val_main_v93 (F := Ideal) x0 x1 x3 x4) x2)
          Facts₀.shapeCasts_S320000x64_S8x40000x64 := by
  unfold val_main_v95
  rw [product_eq]

end Cert.ReferenceIdeal.Product

end
-- ==== Proof.lean ====
/- Chebyshev graph convolution: the proof of `Cert.Claim`.

   Both programs first build, by the same host operations on the same four arrays, the table `X : [320000, 384]` of
   stacked Chebyshev features (the transposed signal, then `x_{k+1} = 2 (L - I) x_k - x_{k-1}` with `(L - I) v =
   scatter_add (vals * gather v cols) rows - v`, six orders, re-laid with one row per (batch, vertex)). The reference then
   contracts `X` with the weights `W : [384, 64]` by one `dot_general`; the kernel does it on a grid of 50 tiles of
   6400 rows, each tile rounded to bf16 and multiplied on the matrix unit into a zero accumulator. Over the extended
   reals rounding is the identity and either product's entry `(r, n)` is the finite sum `∑ k, X (r, k) * W (k, n)`; a row of
   the product depends only on that row of `X`, so the 50 tiles are the 50 blocks of the one product, and they cover it.
   Both results are that product re-laid as [8, 40000, 64]: no law beyond reading the two sums at an index is needed, and
   the precondition (finite inputs) is not used.

   Proof/Projection.lean states the product; Proof/TileProduct.lean reads one tile's matrix product at an index;
   Proof/TileBlocks.lean places the tiles in the whole product and shows they cover it; Proof/FeatureTable.lean
   identifies the table the kernel's region finds with the reference's; Proof/KernelFrame.lean and
   Proof/KernelIdealFrame.lean run the kernel program (at machine words and at extended reals) to its end with the
   arguments unchanged; Proof/KernelProduct.lean names the idealized kernel's result; Proof/RefStages.lean,
   Proof/RefRun.lean and Proof/RefProduct.lean do the same for the reference. -/
import proofs.«135487_j12360915878142_1_alg».proof.Defs
import proofs.«135487_j12360915878142_1_alg».proof.Proof.KernelFrame
import proofs.«135487_j12360915878142_1_alg».proof.Proof.KernelIdealFrame
import proofs.«135487_j12360915878142_1_alg».proof.Proof.KernelProduct
import proofs.«135487_j12360915878142_1_alg».proof.Proof.RefRun
import proofs.«135487_j12360915878142_1_alg».proof.Proof.RefProduct
import proofs.«135487_j12360915878142_1_alg».proof.Proof.Gen.Kernel
import proofs.«135487_j12360915878142_1_alg».proof.Proof.Gen.KernelIdeal
import proofs.«135487_j12360915878142_1_alg».proof.Proof.Gen.ReferenceIdeal
import proofs.«135487_j12360915878142_1_alg».proof.Proof.Gen.Pre_finite_inputs
import Idealize.ShloMosaic.Adequacy
import Idealize.ShloMosaic.Init

noncomputable section

namespace Cert.Proof

open Idealize.ShloMosaic Idealize.SL.Sem

/-- The kernel program at machine words runs to its end, faults nowhere and leaves its five arguments as launched. -/
theorem frame_kernel : Cert.frame_Kernel := fun m ρ _ => Cert.Kernel.Frame.frame m ρ

/-- The same program read at the extended reals. -/
theorem frame_kernelIdeal : Cert.frame_KernelIdeal := fun m ρ _ => Cert.KernelIdeal.Frame.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.StagedRun.run (F := Ideal) m ρ)

/-- The ideal pass rewrote nothing: the idealized kernel is the kernel's own text read at the extended reals. -/
theorem preserves : Cert.preserves_Kernel_KernelIdeal := trivial

/-- From memories agreeing on the five arguments both idealized programs end with the re-laid product of the stacked
    Chebyshev features with the weights: the kernel's run names it (Proof/KernelProduct.lean), and the reference's
    `dot_general` stage is the same sum (Proof/RefProduct.lean). -/
theorem algebraic : Cert.algebraic_KernelIdeal_ReferenceIdeal := by
  intro m ρ m' ρ' _ hagree
  refine ⟨_, Cert.KernelIdeal.Product.run m ρ, ?_⟩
  refine (θ_run Cert.ReferenceIdeal.defs _ _).mono (fun _ h c => ⟨(h c).1.trans ?_, (h c).2⟩)
    (Cert.ReferenceIdeal.StagedRun.run (F := Ideal) m' ρ')
  rw [(hagree c).1, (hagree c).2.1, (hagree c).2.2.1, (hagree c).2.2.2.1, (hagree c).2.2.2.2]
  exact Cert.ReferenceIdeal.Product.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
